-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S4096x256 .f32) (main_arg1 : FVec F S4096x256 .f32) (main_arg2 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S4096x256 : Shape := ⟨2, ![4096, 256]⟩
abbrev S256 : Shape := ⟨1, ![256]⟩
abbrev S_ : Shape := ⟨0, ![]⟩
abbrev S1x256 : Shape := ⟨2, ![1, 256]⟩
abbrev S4096x4096 : Shape := ⟨2, ![4096, 4096]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256, .f32⟩
  | .hbm, ⟨3, _⟩ => ⟨S_, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S1x256, .f32⟩
  | .hbm, ⟨8, _⟩ => ⟨S4096x4096, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1x256, .f32⟩
  | .local _ .vmem, ⟨5, _⟩ => ⟨S1024x1024, .f32⟩
  | .local _ .vmem, ⟨6, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S256 : S_.BroadcastsInDim S256 (![] : Fin 0 → Fin S256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1024x256_S1024x256_0_0 : ∀ a, (![0, 0] : Fin 2 → Nat) a + S1024x256.size a ≤ S1024x256.size a
  h_S1024x256 : 0 < S1024x256.numel
  broadcasts_S1x256_S1024x256 : S1x256.Broadcasts S1024x256
  reduces_S1024x256_S1024 : S1024x256.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .f32 = 32 ∨ (Rect.block (s := S4096x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x256 : Shape := ⟨2, ![4096, 256]⟩
abbrev S256 : Shape := ⟨1, ![256]⟩
abbrev S_ : Shape := ⟨0, ![]⟩
abbrev S1x256 : Shape := ⟨2, ![1, 256]⟩
abbrev S4096 : Shape := ⟨1, ![4096]⟩
abbrev S256x4096 : Shape := ⟨2, ![256, 4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256, .f32⟩
  | .hbm, ⟨3, _⟩ => ⟨S_, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S1x256, .f32⟩
  | .hbm, ⟨8, _⟩ => ⟨S4096x256, .f32⟩
  | .hbm, ⟨9, _⟩ => ⟨S4096x256, .f32⟩
  | .hbm, ⟨10, _⟩ => ⟨S1x256, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096, .f32⟩
  | .hbm, ⟨16, _⟩ => ⟨S4096x256, .f32⟩
  | .hbm, ⟨17, _⟩ => ⟨S_, .f32⟩
  | .hbm, ⟨18, _⟩ => ⟨S4096, .f32⟩
  | .hbm, ⟨19, _⟩ => ⟨S256x4096, .f32⟩
  | .hbm, ⟨20, _⟩ => ⟨S4096x4096, .f32⟩
  | .hbm, ⟨21, _⟩ => ⟨S4096x1, .f32⟩
  | .hbm, ⟨22, _⟩ => ⟨S1x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x4096, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  reducesTo_S4096x256_S4096_d1 : S4096x256.ReducesTo [1] S4096
  h_S_ : 0 < S_.numel
  transposes_S4096x256_S256x4096_1_0 : S4096x256.Transposes [1, 0] S256x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x256_S256x4096_S4096x4096_1_0_0_1_n_n_wf : DotDims.WF S4096x256 S256x4096 S4096x4096 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.LibERealSum.lean ====
/-
  Sums, minima and maxima of real numbers inside the extended reals: the inclusion of the reals carries a
  finite sum to the sum of the images, and a minimum or a maximum of two reals to that of their images.
-/
import Mathlib.Data.EReal.Operations
import Mathlib.Algebra.BigOperators.Group.Finset.Basic

open scoped BigOperators

namespace Cert.LibERealSum

/-- A finite sum of real numbers, each read as an extended real, is the real sum read as an extended real. -/
theorem coe_sum {ι : Type*} (s : Finset ι) (f : ι → ℝ) :
    (∑ k ∈ s, ((f k : ℝ) : EReal)) = ((∑ k ∈ s, f k : ℝ) : EReal) := by
  classical
  refine Finset.induction_on s ?_ ?_
  · simp
  · intro a s ha ih
    rw [Finset.sum_insert ha, Finset.sum_insert ha, ih, EReal.coe_add]

/-- The inclusion of the reals keeps a minimum. -/
theorem coe_min (a b : ℝ) : ((min a b : ℝ) : EReal) = min (a : EReal) (b : EReal) :=
  EReal.coe_strictMono.monotone.map_min

/-- The inclusion of the reals keeps a maximum. -/
theorem coe_max (a b : ℝ) : ((max a b : ℝ) : EReal) = max (a : EReal) (b : EReal) :=
  EReal.coe_strictMono.monotone.map_max

end Cert.LibERealSum
-- ==== Proof.ArdSpec.lean ====
/-
  The ARD (automatic relevance determination) Gram matrix, entry by entry over the extended reals.

  Every row of `x` and of `y` is rescaled coordinate by coordinate with `s_k = exp (-(1/2) · l_k)`. For a
  rescaled row `a` of `x` and `b` of `y` the squared distance is expanded as `|a|² + |b|² - 2 ⟨a, b⟩`, and the
  entry is `exp (-(1/2) · max (|a|² + |b|² - 2 ⟨a, b⟩) 0)`. The other spelling moves the factor `-(1/2)` through
  the maximum, which turns it into a minimum: `exp (min (⟨a, b⟩ - (1/2) |a|² - (1/2) |b|²) 0)`.

  The two agree on real numbers because `-(1/2) · max d 0 = min (-(1/2) · d) 0` and multiplication distributes
  over the sum `|a|² + |b|² - 2 ⟨a, b⟩`. Distributivity is the step that fails at an infinity of the extended
  reals, so the equation is stated for arrays all of whose entries are real numbers; then the scale
  `exp (-(1/2) l_k)`, the rescaled entries, the squared norms and the inner product are real too.
-/
import Idealize.ShloMosaic.PureOps.Ideal.Laws
import Idealize.ShloMosaic.Lib.ValueIdx
import proofs.«154866_j82360292868538_2_alg».proof.Proof.LibERealSum

noncomputable section

open scoped BigOperators

namespace Cert.ArdSpec

open Idealize.ShloMosaic Idealize.ShloMosaic.ValueIdx

/-- The two data matrices: 4096 points of 256 coordinates each. -/
abbrev SX : Shape := ⟨2, ![4096, 256]⟩
/-- The logarithms of the 256 band widths. -/
abbrev SL : Shape := ⟨1, ![256]⟩
/-- The Gram matrix. -/
abbrev SO : Shape := ⟨2, ![4096, 4096]⟩

/-- The scale of coordinate `k`: `exp (-(1/2) · l_k)`, the factor `-(1/2)` spelled by its binary word. -/
def scale (l : SL.Idx → EReal) (k : Fin 256) : EReal :=
  Ideal.exp (Ideal.ofBits .f32 0xBF000000#32 * l (ix1 k))

/-- Entry `(r, k)` of a data matrix, rescaled. -/
def scaled (x : SX.Idx → EReal) (l : SL.Idx → EReal) (r : Fin 4096) (k : Fin 256) : EReal :=
  x (ix2 r k) * scale l k

/-- The squared norm of rescaled row `r`. -/
def sq (x : SX.Idx → EReal) (l : SL.Idx → EReal) (r : Fin 4096) : EReal :=
  ∑ k : Fin 256, scaled x l r k * scaled x l r k

/-- The inner product of rescaled row `r` of `x` with rescaled row `s` of `y`. -/
def cross (x y : SX.Idx → EReal) (l : SL.Idx → EReal) (r s : Fin 4096) : EReal :=
  ∑ k : Fin 256, scaled x l r k * scaled y l s k

/-- The Gram matrix with the factor inside: `exp (min (⟨a, b⟩ - (1/2) |a|² - (1/2) |b|²) 0)`. -/
def gramMin (x y : SX.Idx → EReal) (l : SL.Idx → EReal) : SO.Idx → EReal := fun i =>
  Ideal.exp (min
    (cross x y l (i 0) (i 1) - Ideal.ofBits .f32 0x3F000000#32 * sq x l (i 0)
      - Ideal.ofBits .f32 0x3F000000#32 * sq y l (i 1))
    (Ideal.ofBits .f32 0x00000000#32))

/-- The Gram matrix with the factor outside: `exp (-(1/2) · max ((0 + |a|²) + (0 + |b|²) - 2 ⟨a, b⟩) 0)`; each
    squared norm is a sum started from the zero word. -/
def gramMax (x y : SX.Idx → EReal) (l : SL.Idx → EReal) : SO.Idx → EReal := fun i =>
  Ideal.exp (Ideal.ofBits .f32 0xBF000000#32 * max
    ((Ideal.ofBits .f32 0x00000000#32 + sq x l (i 0)) + (Ideal.ofBits .f32 0x00000000#32 + sq y l (i 1))
      - Ideal.ofBits .f32 0x40000000#32 * cross x y l (i 0) (i 1))
    (Ideal.ofBits .f32 0x00000000#32))

/-! ## The four binary words -/

/-- The word `0x3F000000` is one half. -/
theorem word_half : Ideal.ofBits .f32 0x3F000000#32 = ((1 / 2 : ℝ) : EReal) := by
  simp [Ideal.ofBits, Ideal.ieee, -EReal.coe_mul]; norm_num

/-- The word `0xBF000000` is minus one half. -/
theorem word_negHalf : Ideal.ofBits .f32 0xBF000000#32 = ((-(1 / 2) : ℝ) : EReal) := by
  simp [Ideal.ofBits, Ideal.ieee, -EReal.coe_mul]; norm_num

/-- The word `0x40000000` is two. -/
theorem word_two : Ideal.ofBits .f32 0x40000000#32 = ((2 : ℝ) : EReal) := by
  simp [Ideal.ofBits, Ideal.ieee, -EReal.coe_mul]; norm_num

/-- The zero word is the real zero. -/
theorem word_zero : Ideal.ofBits .f32 0x00000000#32 = ((0 : ℝ) : EReal) := by
  rw [Ideal.ofBits_zero_f32, EReal.coe_zero]

/-! ## The law on real numbers -/

/-- For a squared distance `d`: `min (-(1/2) d) 0 = -(1/2) max d 0`, written with the three terms apart. -/
theorem real_law (a b c : ℝ) :
    min (c - 1 / 2 * a - 1 / 2 * b) 0 = -(1 / 2) * max ((0 + a) + (0 + b) - 2 * c) 0 := by
  rcases le_total ((0 + a) + (0 + b) - 2 * c) 0 with h | h
  · rw [max_eq_right h, min_eq_right (by linarith)]; ring
  · rw [max_eq_left h, min_eq_left (by linarith)]; ring

/-- The same on the extended reals, at real arguments, under the exponential. -/
theorem ereal_law (a b c : ℝ) :
    Ideal.exp (min
        ((c : EReal) - Ideal.ofBits .f32 0x3F000000#32 * (a : EReal) - Ideal.ofBits .f32 0x3F000000#32 * (b : EReal))
        (Ideal.ofBits .f32 0x00000000#32))
      = Ideal.exp (Ideal.ofBits .f32 0xBF000000#32 * max
        ((Ideal.ofBits .f32 0x00000000#32 + (a : EReal)) + (Ideal.ofBits .f32 0x00000000#32 + (b : EReal))
          - Ideal.ofBits .f32 0x40000000#32 * (c : EReal))
        (Ideal.ofBits .f32 0x00000000#32)) := by
  rw [word_half, word_negHalf, word_two, word_zero]
  simp only [← EReal.coe_mul, ← EReal.coe_sub, ← EReal.coe_add, ← LibERealSum.coe_min, ← LibERealSum.coe_max]
  rw [real_law]

/-! ## The two spellings agree on real arrays -/

/-- On arrays whose entries are all real numbers the two spellings of the Gram matrix are one function. -/
theorem gramMin_eq_gramMax (x y : SX.Idx → EReal) (l : SL.Idx → EReal)
    (hx : ∀ i, ∃ r : ℝ, x i = (r : EReal)) (hy : ∀ i, ∃ r : ℝ, y i = (r : EReal))
    (hl : ∀ i, ∃ r : ℝ, l i = (r : EReal)) : gramMin x y l = gramMax x y l := by
  choose xr hxr using hx
  choose yr hyr using hy
  choose lr hlr using hl
  have hs : ∀ k, scale l k = ((Real.exp (-(1 / 2) * lr (ix1 k)) : ℝ) : EReal) := fun k => by
    unfold scale; rw [word_negHalf, hlr, ← EReal.coe_mul, Ideal.exp_coe]
  have hsx : ∀ r k, scaled x l r k = ((xr (ix2 r k) * Real.exp (-(1 / 2) * lr (ix1 k)) : ℝ) : EReal) := fun r k => by
    unfold scaled; rw [hs, hxr, ← EReal.coe_mul]
  have hsy : ∀ r k, scaled y l r k = ((yr (ix2 r k) * Real.exp (-(1 / 2) * lr (ix1 k)) : ℝ) : EReal) := fun r k => by
    unfold scaled; rw [hs, hyr, ← EReal.coe_mul]
  have hqx : ∀ r, ∃ a : ℝ, sq x l r = (a : EReal) := fun r => ⟨_, by
    unfold sq; simp only [hsx, ← EReal.coe_mul]; exact LibERealSum.coe_sum _ _⟩
  have hqy : ∀ r, ∃ a : ℝ, sq y l r = (a : EReal) := fun r => ⟨_, by
    unfold sq; simp only [hsy, ← EReal.coe_mul]; exact LibERealSum.coe_sum _ _⟩
  have hc : ∀ r s, ∃ a : ℝ, cross x y l r s = (a : EReal) := fun r s => ⟨_, by
    unfold cross; simp only [hsx, hsy, ← EReal.coe_mul]; exact LibERealSum.coe_sum _ _⟩
  funext i
  obtain ⟨a, ha⟩ := hqx (i 0)
  obtain ⟨b, hb⟩ := hqy (i 1)
  obtain ⟨c, hc'⟩ := hc (i 0) (i 1)
  unfold gramMin gramMax
  rw [ha, hb, hc']
  exact ereal_law a b c

end Cert.ArdSpec

end
-- ==== Proof.LibKernelIdx.lean ====
/-
  Operations of a kernel body read at an index given by coordinates: the two keepdims column layout forms
  (a vector made a column, [a] → [a, 1], and a column repeated along the lanes, [a, 1] → [a, b]), a lane sum of a
  matrix read at a row, and a matrix product accumulated into the zero splat read at an entry. General in the
  extents; the arithmetic ones at the ideal values, where a float is an extended real.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKernelIdx

open Idealize.ShloMosaic Idealize.ShloMosaic.ValueIdx

variable {α : Type}

/-! ## The keepdims column forms -/

/-- An `[a]` array cast to the column `[a, 1]` reads, at `(i, u)`, the operand at `i`, whatever the unit
    coordinate `u`: both row-major positions are `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p` (its unit coordinate
    written `u`, whatever it is). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-! ## A lane sum at a row -/

/-- The sum of an `[a, b]` matrix along its second axis, read at row `p`, is the sum of that row's entries. The
    accumulator's side condition is typed as a program spells it, an equation between two zero words. -/
theorem laneSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ v 0x00000000#32 h hφ hacc (ix1 p) = ∑ k : Fin b, v (ix2 p k) := by
  refine (Ideal.multiReduction_add_single v 0x00000000#32 h hφ hacc (ix1 p)).trans ?_
  refine Finset.sum_congr rfl fun k _ => congrArg v (funext fun ax => Fin.ext ?_)
  match ax with
  | ⟨0, _⟩ => rfl
  | ⟨1, _⟩ => rfl

/-! ## A matrix product at an entry -/

/-- The product of an `[m, k]` by a `[k, n]` matrix (the left operand's second axis contracted with the right
    operand's first, no batch axes) accumulated into the zero splat, read at `(p, j)`: the sum over the contracted
    coordinate of the products of the entries. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (p : Fin m) (j : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 p j)
      = ∑ c : Fin k, A (ix2 p c) * B (ix2 c j) := by
  show FloatOps.matmul _ prec A B _ (ix2 p j) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 p j)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 p j)
      ((contrEquiv1 _ k rfl rfl).symm c) = ix2 c j := by
    funext ax; apply Fin.ext
    match ax with
    | ⟨0, _⟩ => simp [DotDims.rhsIdx]; exact c2
    | ⟨1, _⟩ => simp [DotDims.rhsIdx]; rfl
  rw [l2, r2]

end Cert.LibKernelIdx

end
-- ==== Proof.LibMatmulRows.lean ====
/-
  A matrix product that contracts the SECOND axis of both operands, an `[m, k]` matrix with the transpose of an
  `[n, k]` one, accumulated into the zero splat and read at an entry at the ideal values: entry `(p, j)` is the
  inner product of row `p` of the left operand with row `j` of the right one. General in the extents.
-/
import Idealize.ShloMosaic.Lib.Pipeline.Value
import Idealize.ShloMosaic.Lib.ValueIdx
import Idealize.ShloMosaic.PureOps.Ideal.Laws

noncomputable section

open scoped BigOperators

namespace Cert.LibMatmulRows

open Idealize.ShloMosaic Idealize.ShloMosaic.ValueIdx

variable {m k n : ℕ}

/-- The dimension numbers: each operand's second axis contracted, its first kept, no batch axes. -/
abbrev rowsDims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

variable (w : DotDims.WF ⟨2, ![m, k]⟩ ⟨2, ![n, k]⟩ ⟨2, ![m, n]⟩ [1] [1] [0] [0] [] [])

/-- The left operand is read in the row the result's first coordinate names, -/
theorem lhs_row (i : (⟨2, ![m, n]⟩ : Shape).Idx) (q : (rowsDims w).contr.Idx) :
    ((rowsDims w).lhsIdx i q 0).val = (i 0).val := by
  unfold DotDims.lhsIdx
  rw [dif_neg (show ¬((0 : Fin 2) ∈ (rowsDims w).lhsBatch) from List.not_mem_nil),
    dif_pos (show (0 : Fin 2) ∈ (rowsDims w).lhsNonContracting from List.mem_singleton.mpr rfl)]
  rfl

/-- and the right operand in the row the result's second coordinate names. -/
theorem rhs_row (i : (⟨2, ![m, n]⟩ : Shape).Idx) (q : (rowsDims w).contr.Idx) :
    ((rowsDims w).rhsIdx i q 0).val = (i 1).val := by
  unfold DotDims.rhsIdx
  rw [dif_neg (show ¬((0 : Fin 2) ∈ (rowsDims w).rhsBatch) from List.not_mem_nil),
    dif_pos (show (0 : Fin 2) ∈ (rowsDims w).rhsNonContracting from List.mem_singleton.mpr rfl)]
  rfl

/-- The product of an `[m, k]` matrix with the transpose of an `[n, k]` matrix (each operand's second axis
    contracted, no batch axes) accumulated into the zero splat, read at `(p, j)`: the sum over the contracted
    coordinate `c` of `A (p, c) · B (j, c)`. -/
theorem matmul_rows_zero_apply {φ₁ φ₂ : FTy} (prec : Option ContractPrecision)
    (A : FVec Ideal ⟨2, ![m, k]⟩ φ₁) (B : FVec Ideal ⟨2, ![n, k]⟩ φ₂) (p : Fin m) (j : Fin n) :
    matmul (rowsDims w) prec A B (constant (F := Ideal) ⟨2, ![m, n]⟩ .f32 0x00000000#32) (ix2 p j)
      = ∑ c : Fin k, A (ix2 p c) * B (ix2 j c) := by
  show FloatOps.matmul _ prec A B _ (ix2 p j) = _
  rw [Ideal.matmul_constant_zero_apply, ← Equiv.sum_comp (contrEquiv1 (rowsDims w) k rfl rfl).symm]
  refine Finset.sum_congr rfl fun c _ => ?_
  have c2 := contrEquiv1_symm_val (rowsDims w) k rfl rfl c
  have l2 : (rowsDims w).lhsIdx (ix2 p j) ((contrEquiv1 (rowsDims w) k rfl rfl).symm c) = ix2 p c :=
    funext fun ax => Fin.ext (by
      match ax with
      | ⟨0, _⟩ => exact lhs_row w _ _
      | ⟨1, _⟩ => exact ((rowsDims w).lhsIdx_val_of_single rfl _ _).trans c2)
  have r2 : (rowsDims w).rhsIdx (ix2 p j) ((contrEquiv1 (rowsDims w) k rfl rfl).symm c) = ix2 j c :=
    funext fun ax => Fin.ext (by
      match ax with
      | ⟨0, _⟩ => exact rhs_row w _ _
      | ⟨1, _⟩ => exact ((rowsDims w).rhsIdx_val_of_single rfl _ _).trans c2)
  rw [l2, r2]

end Cert.LibMatmulRows

end
-- ==== Proof.KernelValue.lean ====
/-
  The kernel body's one stored value, read at an entry of the output block.

  The body loads a block of 1024 rows of `x`, a block of 1024 rows of `y` and the one row of scales. Each data
  block is multiplied, coordinate by coordinate, by the scale row repeated down the rows. The squared norms of
  the rescaled rows are lane sums, kept as a column; the column of the `y` block is turned into a row. The inner
  products are one matrix product that contracts the second axis of both rescaled blocks. The stored value at
  `(p, q)` is `exp (min (⟨a_p, b_q⟩ - (1/2) |a_p|² - (1/2) |b_q|²) 0)` for the rescaled rows `a_p`, `b_q`.
-/
import proofs.«154866_j82360292868538_2_alg».proof.Proof.Gen.KernelIdeal.Skeleton
import proofs.«154866_j82360292868538_2_alg».proof.Proof.LibKernelIdx
import proofs.«154866_j82360292868538_2_alg».proof.Proof.LibMatmulRows
import proofs.«154866_j82360292868538_2_alg».proof.Proof.ArdSpec
import Idealize.ShloMosaic.Lib.ValueLayout

noncomputable section

open scoped BigOperators

namespace Cert.KernelValue

open Cert.KernelIdeal Cert.KernelIdeal.Gen Idealize.ShloMosaic Idealize.ShloMosaic.ValueIdx

/-- A data block rescaled: each row times the scale row. -/
def rescaled (x : FVec Ideal S1024x256 .f32) (b : FVec Ideal S1x256 .f32) : FVec Ideal S1024x256 .f32 :=
  mulf x (broadcastTo S1024x256 (shapeCast S1x256 b shapeCasts_S1x256_S1x256) broadcasts_S1x256_S1024x256)

/-- Entry `(p, k)` of a rescaled block. -/
theorem rescaled_at (x : FVec Ideal S1024x256 .f32) (b : FVec Ideal S1x256 .f32) (p : Fin 1024) (k : Fin 256) :
    rescaled x b (ix2 p k) = x (ix2 p k) * b (ix2 (0 : Fin 1) k) := by
  unfold rescaled
  rw [mulf_apply, broadcastTo_1b_ab_apply, shapeCast_self]

/-- The squared norms of the rows of a block, kept as a column. -/
def normsCol (v : FVec Ideal S1024x256 .f32) : FVec Ideal S1024x1 .f32 :=
  shapeCast S1024x1
    (multiReduction .add [1] S1024 (mulf v v) 0x00000000#32 reduces_S1024x256_S1024 (.inl rfl) rfl)
    shapeCasts_S1024_S1024x1

/-- Row `p` of the column of squared norms, whatever the unit coordinate. -/
theorem normsCol_at (v : FVec Ideal S1024x256 .f32) (p : Fin 1024) (u : Fin 1) :
    normsCol v (ix2 p u) = ∑ k : Fin 256, v (ix2 p k) * v (ix2 p k) := by
  unfold normsCol
  refine (LibKernelIdx.shapeCast_a_a1_apply _ shapeCasts_S1024_S1024x1 p u).trans ?_
  exact LibKernelIdx.laneSum_apply (mulf v v) reduces_S1024x256_S1024 (.inl rfl) rfl p

/-- The body's stored value in terms of the two rescaled blocks. -/
theorem pay_eq (b : FVec Ideal S1x256 .f32) (x y : FVec Ideal S1024x256 .f32) :
    k0_pay1 (F := Ideal) b x y
      = exp (minimumf
          (subf
            (subf
              (matmul dot_S1024x256_S1024x256_S1024x1024_1_1_0_0_n_n none
                (truncf .bf16 (rescaled x b) bitsLt_bf16_f32) (truncf .bf16 (rescaled y b) bitsLt_bf16_f32)
                (constant S1024x1024 .f32 0x00000000#32))
              (broadcastTo S1024x1024
                (mulf (broadcast S1024x1 (Scalar.ofBits .f32 0x3F000000#32)) (normsCol (rescaled x b)))
                broadcasts_S1024x1_S1024x1024))
            (broadcastTo S1024x1024
              (mulf (broadcast S1x1024 (Scalar.ofBits .f32 0x3F000000#32))
                (transpose S1x1024 [1, 0] (normsCol (rescaled y b)) transposes_S1024x1_p1_0_S1x1024))
              broadcasts_S1x1024_S1024x1024))
          (broadcast S1024x1024 (Scalar.ofBits .f32 0x00000000#32))) := rfl

/-- Entry `(p, q)` of the product of the rescaled blocks: the inner product of row `p` with row `q`. -/
theorem cross_at (X Y : FVec Ideal S1024x256 .f32) (p q : Fin 1024) :
    matmul dot_S1024x256_S1024x256_S1024x1024_1_1_0_0_n_n none
        (truncf .bf16 X bitsLt_bf16_f32) (truncf .bf16 Y bitsLt_bf16_f32)
        (constant (F := Ideal) S1024x1024 .f32 0x00000000#32) (ix2 p q)
      = ∑ k : Fin 256, X (ix2 p k) * Y (ix2 q k) :=
  LibMatmulRows.matmul_rows_zero_apply dot_S1024x256_S1024x256_S1024x1024_1_1_0_0_n_n_wf none
    (truncf .bf16 X bitsLt_bf16_f32) (truncf .bf16 Y bitsLt_bf16_f32) p q

/-- Half the squared norm of row `p`, repeated along the lanes. -/
theorem halfCol_at (c : EReal) (col : FVec Ideal S1024x1 .f32) (p q : Fin 1024) :
    broadcastTo S1024x1024 (mulf (broadcast S1024x1 c) col) broadcasts_S1024x1_S1024x1024 (ix2 p q)
      = c * col (ix2 p (0 : Fin 1)) := by
  rw [LibKernelIdx.broadcastTo_a1_ab_apply _ broadcasts_S1024x1_S1024x1024 p q (0 : Fin 1), mulf_apply, broadcast_apply]

/-- Half the squared norm of row `q`, as a row repeated down the rows. -/
theorem halfRow_at (c : EReal) (col : FVec Ideal S1024x1 .f32) (p q : Fin 1024) :
    broadcastTo S1024x1024
        (mulf (broadcast S1x1024 c) (transpose S1x1024 [1, 0] col transposes_S1024x1_p1_0_S1x1024))
        broadcasts_S1x1024_S1024x1024 (ix2 p q)
      = c * col (ix2 q (0 : Fin 1)) := by
  rw [broadcastTo_1b_ab_apply, mulf_apply, broadcast_apply, transpose_ix2_apply]

/-- The stored value at `(p, q)`. -/
theorem pay_at (b : FVec Ideal S1x256 .f32) (x y : FVec Ideal S1024x256 .f32) (p q : Fin 1024) :
    k0_pay1 (F := Ideal) b x y (ix2 p q)
      = Ideal.exp (min
          ((∑ k : Fin 256, (x (ix2 p k) * b (ix2 (0 : Fin 1) k)) * (y (ix2 q k) * b (ix2 (0 : Fin 1) k)))
            - Ideal.ofBits .f32 0x3F000000#32
              * (∑ k : Fin 256, (x (ix2 p k) * b (ix2 (0 : Fin 1) k)) * (x (ix2 p k) * b (ix2 (0 : Fin 1) k)))
            - Ideal.ofBits .f32 0x3F000000#32
              * (∑ k : Fin 256, (y (ix2 q k) * b (ix2 (0 : Fin 1) k)) * (y (ix2 q k) * b (ix2 (0 : Fin 1) k))))
          (Ideal.ofBits .f32 0x00000000#32)) := by
  rw [pay_eq]
  show Ideal.exp (min (_ - _ - _) _) = _
  rw [cross_at, halfCol_at, halfRow_at, normsCol_at, normsCol_at]
  simp only [rescaled_at]
  rfl

/-- The stored value at `(p, q)` is the Gram matrix's entry `(r, s)` (factor inside) when row `p` of the `x` block is
    row `r` of `X`, row `q` of the `y` block is row `s` of `Y`, and the block's scale row is the scale of `l`. -/
theorem pay_is_gramMin (X Y : ArdSpec.SX.Idx → EReal) (l : ArdSpec.SL.Idx → EReal)
    (b : FVec Ideal S1x256 .f32) (x y : FVec Ideal S1024x256 .f32) (p q : Fin 1024) (r s : Fin 4096)
    (hb : ∀ k : Fin 256, b (ix2 (0 : Fin 1) k) = ArdSpec.scale l k)
    (hx : ∀ k : Fin 256, x (ix2 p k) = X (ix2 r k)) (hy : ∀ k : Fin 256, y (ix2 q k) = Y (ix2 s k)) :
    k0_pay1 (F := Ideal) b x y (ix2 p q) = ArdSpec.gramMin X Y l (ix2 r s) := by
  rw [pay_at]
  simp only [hb, hx, hy]
  rfl

end Cert.KernelValue

end
-- ==== Proof.KernelArray.lean ====
/-
  From the blocks to the whole Gram matrix.

  The grid has 4 × 4 points. Point `(I, J)` reads rows `1024 I … 1024 I + 1023` of `x`, rows
  `1024 J … 1024 J + 1023` of `y` and the one row of scales, and writes block `(I, J)` of the output. The row of
  scales the region finds is `exp (-(1/2) · l)`, computed before the region and laid out as one row. So what a
  point writes is its block of ONE function of the three argument arrays, the Gram matrix with the factor
  inside; the sixteen blocks tile the `4096 × 4096` output, so after the run the output array is that function.
-/
import proofs.«154866_j82360292868538_2_alg».proof.Proof.Gen.KernelIdeal.Value
import proofs.«154866_j82360292868538_2_alg».proof.Proof.KernelValue
import Idealize.ShloMosaic.Lib.StableHlo.Run
import Idealize.ShloMosaic.Lib.ValueLayout

set_option maxRecDepth 16384

noncomputable section

namespace Cert.KernelArray

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The zero offsets of a whole-block access, as a function. -/
theorem zero_offsets : (![0, 0] : Fin 2 → Nat) = fun _ => 0 := funext fun a => by fin_cases a <;> rfl

/-! ## The row of scales the region finds -/

/-- Before the region the logarithms are multiplied by minus one half, exponentiated, and laid out as one row. -/
theorem scaleRow_eq (c : Dev nD) :
    (V m c main_v3 : S1x256.Idx → EReal)
      = shapeCast S1x256
          (Host.exp (mulf (broadcastInDim S256 ![] bcast_S_S256 (constant (F := Ideal) S_ .f32 0xBF000000#32))
            (m ((c : Thread nD τ).loc main_arg2))))
          shapeCasts_S256_S1x256 := by
  dsimp only [Gen.V, Gen.hostOps0]
  after_results
  rfl

/-- Its entry `k` is the scale of coordinate `k`. -/
theorem scaleRow_at (c : Dev nD) (k : Fin 256) :
    (V m c main_v3 : S1x256.Idx → EReal) (ix2 (0 : Fin 1) k)
      = ArdSpec.scale (m ((c : Thread nD τ).loc main_arg2)) k := by
  rw [scaleRow_eq, shapeCast_a_1a_apply]
  show Ideal.exp (broadcastInDim S256 ![] bcast_S_S256 (constant (F := Ideal) S_ .f32 0xBF000000#32) (ix1 k)
    * m ((c : Thread nD τ).loc main_arg2) (ix1 k)) = _
  rw [broadcastInDim_apply _ bcast_S_S256 (constant (F := Ideal) S_ .f32 0xBF000000#32) (ix1 k) ix0 (fun a => a.elim0)]
  rfl

/-! ## Which blocks a point reads and writes -/

/-- The printed index maps over the sixteen points: the `x` block follows the output block's row index, the `y`
    block its column index, the scale row never moves, and both output block indices are below four. -/
theorem block_indices : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = 0
    ∧ win0_3.index t (0 : Fin 2) ≤ 3 ∧ win0_3.index t (1 : Fin 2) ≤ 3 :=
  (by decide +kernel : ∀ t : Fin grid0.N, _)

/-- Every one of the 4 × 4 output blocks is some point's. -/
theorem block_onto : ∀ (q0 q1 : Fin 4), ∃ t : Fin cfg0.N, win0_3.index t = ![q0.val, q1.val] :=
  (by decide +kernel : ∀ (q0 q1 : Fin 4), ∃ t : Fin grid0.N, win0_3.index t = ![q0.val, q1.val])

/-! ## What a point writes back -/

/-- Point `t` writes back block `t` of the Gram matrix (factor inside) of the arrays as the region finds them. -/
theorem flushed_eq (c : Dev nD) (t : Fin cfg0.N) :
    (dats m 0 c).flushed 3 t = ((cfg0.win 3).blk t).view.read (Elt Ideal)
      (ArdSpec.gramMin (V m c main_arg0) (V m c main_arg1) (m ((c : Thread nD τ).loc main_arg2))) := by
  rw [Value.flushed3]
  unfold out0_3
  rw [View.canon_unit_zero zero_offsets]
  simp only [View.ld_unit_zero (S := S1x256) zero_offsets, View.ld_unit_zero (S := S1024x256) zero_offsets]
  obtain ⟨e0, e1, e2, e3, e4, e5, -, -⟩ := block_indices t
  funext j
  show k0_pay1 (iblk m c 2 t) (iblk m c 0 t) (iblk m c 1 t) j
    = ArdSpec.gramMin (V m c main_arg0) (V m c main_arg1) (m ((c : Thread nD τ).loc main_arg2))
        (((cfg0.win 3).blk t).view.emb j)
  refine (congrArg (k0_pay1 (iblk m c 2 t) (iblk m c 0 t) (iblk m c 1 t)) (eq_ix2 j)).trans ?_
  refine (KernelValue.pay_is_gramMin (V m c main_arg0) (V m c main_arg1) (m ((c : Thread nD τ).loc main_arg2))
    (iblk m c 2 t) (iblk m c 0 t) (iblk m c 1 t) (j 0) (j 1)
    ((((cfg0.win 3).blk t).view.emb j) 0) ((((cfg0.win 3).blk t).view.emb j) 1) ?_ ?_ ?_).trans ?_
  · intro k
    refine Eq.trans ?_ (scaleRow_at m c k)
    show V m c main_v3 (((cfg0.win 2).blk t).view.emb (ix2 (0 : Fin 1) k)) = V m c main_v3 (ix2 (0 : Fin 1) k)
    refine congrArg _ (funext fun a => Fin.ext ?_)
    match a with
    | ⟨0, _⟩ => show win0_2.index t (0 : Fin 2) * 1 + 1 * 0 = 0; rw [e4]
    | ⟨1, _⟩ => show win0_2.index t (1 : Fin 2) * 256 + 1 * k.val = k.val; rw [e5]; omega
  · intro k
    show V m c main_arg0 (((cfg0.win 0).blk t).view.emb (ix2 (j 0) k))
      = V m c main_arg0 (ix2 ((((cfg0.win 3).blk t).view.emb j) 0) k)
    refine congrArg _ (funext fun a => Fin.ext ?_)
    match a with
    | ⟨0, _⟩ =>
      show win0_0.index t (0 : Fin 2) * 1024 + 1 * (j 0).val = win0_3.index t (0 : Fin 2) * 1024 + 1 * (j 0).val
      rw [e0]
    | ⟨1, _⟩ => show win0_0.index t (1 : Fin 2) * 256 + 1 * k.val = k.val; rw [e1]; omega
  · intro k
    show V m c main_arg1 (((cfg0.win 1).blk t).view.emb (ix2 (j 1) k))
      = V m c main_arg1 (ix2 ((((cfg0.win 3).blk t).view.emb j) 1) k)
    refine congrArg _ (funext fun a => Fin.ext ?_)
    match a with
    | ⟨0, _⟩ =>
      show win0_1.index t (0 : Fin 2) * 1024 + 1 * (j 1).val = win0_3.index t (1 : Fin 2) * 1024 + 1 * (j 1).val
      rw [e2]
    | ⟨1, _⟩ => show win0_1.index t (1 : Fin 2) * 256 + 1 * k.val = k.val; rw [e3]; omega
  · exact congrArg _ (eq_ix2 (((cfg0.win 3).blk t).view.emb j)).symm

/-! ## The blocks tile the output -/

/-- An index of the output is in point `t`'s block iff each coordinate is in the block's range on its axis. -/
theorem mem_block (t : Fin cfg0.N) (i : S4096x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v4).slice (win0_3.rect t)).set ↔ _
  rw [View.set_slice_whole, Rect.mem_set_unit]
  exact Iff.rfl

/-- Every index of the output is in the block of the point whose block indices are its coordinates' quotients by 1024. -/
theorem covered (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := block_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-! ## The output array after the run -/

/-- After the run the output array is the Gram matrix (factor inside) of the three argument arrays. -/
theorem final (c : Dev nD) :
    (dats m 0 c).arrAt 3 cfg0.N
      = ArdSpec.gramMin (m ((c : Thread nD τ).loc main_arg0)) (m ((c : Thread nD τ).loc main_arg1))
          (m ((c : Thread nD τ).loc main_arg2)) :=
  ((dats m 0 c).arrAt_eq_of_cover 3 _ (fun t _ => flushed_eq m c t) covered).trans (by
    rw [V_main_arg0, V_main_arg1])

/-- The kernel's run: every weakly fair execution terminates with the output array at the Gram matrix of the
    arguments and the arguments unchanged. -/
theorem run : θ_run defs (onTc (τ := τ) (main (F := Ideal))) ⟨m, fun _ => 0, ρ⟩ fun r => ∀ c : Dev nD,
      r.2.mem ((c : Thread nD τ).loc main_v4)
        = ArdSpec.gramMin (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelArray

end
-- ==== Proof.RefValue.lean ====
/-
  The reference's result, read one operation at a time, is the Gram matrix with the factor outside
  (`ArdSpec.gramMax`).

  A row of either data matrix is multiplied, coordinate by coordinate, by the scale vector (the exponential of
  minus one half of the logarithms, laid along the rows); a squared norm is the zero word plus the sum of the
  squares along a row; the inner products are one matrix product of the rescaled `x` with the transpose of the
  rescaled `y`; the entry at `(r, s)` then combines the norm of row `r`, the norm of row `s` and the product's
  entry `(r, s)`.
-/
import proofs.«154866_j82360292868538_2_alg».proof.Proof.Gen.ReferenceIdeal.Read
import proofs.«154866_j82360292868538_2_alg».proof.Proof.ArdSpec

noncomputable section

open scoped BigOperators

namespace Cert.RefValue

open Cert.ReferenceIdeal Cert.ReferenceIdeal.Read Idealize.ShloMosaic Idealize.ShloMosaic.ValueIdx

variable (x0 x1 : (⟨S4096x256, .f32⟩ : BufTy).Contents (Elt Ideal)) (x2 : (⟨S256, .f32⟩ : BufTy).Contents (Elt Ideal))

/-- Entry `(r, k)` of the rescaled `x`. -/
theorem scaled_x (r : Fin 4096) (k : Fin 256) :
    val_main_v5 (F := Ideal) x0 x2 (ix2 r k) = ArdSpec.scaled x0 x2 r k := by
  rw [val_main_v5_apply, val_main_v4_apply, val_main_v3_apply, val_main_v2_apply, val_main_v1_apply,
    val_main_v0_apply, val_main_cst_apply]
  have e : idx_main_v3 (idx_main_v4 (ix2 r k)) = ix1 k :=
    funext fun a => Fin.ext (by match a with | ⟨0, _⟩ => rfl)
  rw [e]; rfl

/-- Entry `(r, k)` of the rescaled `y`. -/
theorem scaled_y (r : Fin 4096) (k : Fin 256) :
    val_main_v8 (F := Ideal) x1 x2 (ix2 r k) = ArdSpec.scaled x1 x2 r k := by
  rw [val_main_v8_apply, val_main_v7_apply, val_main_v6_apply, val_main_v2_apply, val_main_v1_apply,
    val_main_v0_apply, val_main_cst_apply]
  have e : idx_main_v6 (idx_main_v7 (ix2 r k)) = ix1 k :=
    funext fun a => Fin.ext (by match a with | ⟨0, _⟩ => rfl)
  rw [e]; rfl

/-- The squared norm of rescaled row `r` of `x`, started from the zero word. -/
theorem sq_x (r : Fin 4096) :
    val_main_v10 (F := Ideal) x0 x2 (ix1 r) = Ideal.ofBits .f32 0x00000000#32 + ArdSpec.sq x0 x2 r := by
  rw [val_main_v10_apply, val_main_cst_0_apply]
  refine congrArg (_ + ·) (Finset.sum_congr rfl fun k _ => ?_)
  have e : idx_main_v10 (ix1 r) k = ix2 r k :=
    funext fun a => Fin.ext (by match a with | ⟨0, _⟩ => rfl | ⟨1, _⟩ => rfl)
  rw [val_main_v9_apply, e, scaled_x]; rfl

/-- The squared norm of rescaled row `s` of `y`, started from the zero word. -/
theorem sq_y (s : Fin 4096) :
    val_main_v12 (F := Ideal) x1 x2 (ix1 s) = Ideal.ofBits .f32 0x00000000#32 + ArdSpec.sq x1 x2 s := by
  rw [val_main_v12_apply, val_main_cst_1_apply]
  refine congrArg (_ + ·) (Finset.sum_congr rfl fun k _ => ?_)
  have e : idx_main_v12 (ix1 s) k = ix2 s k :=
    funext fun a => Fin.ext (by match a with | ⟨0, _⟩ => rfl | ⟨1, _⟩ => rfl)
  rw [val_main_v11_apply, e, scaled_y]; rfl

/-- Entry `(r, s)` of the product of the rescaled `x` with the transposed rescaled `y`. -/
theorem cross_xy (r s : Fin 4096) :
    val_main_v14 (F := Ideal) x0 x1 x2 (ix2 r s) = ArdSpec.cross x0 x1 x2 r s := by
  rw [val_main_v14_apply]
  refine Finset.sum_congr rfl fun k _ => ?_
  have el : lidx_main_v14 (ix2 r s) k = ix2 r k :=
    funext fun a => Fin.ext (by match a with | ⟨0, _⟩ => rfl | ⟨1, _⟩ => rfl)
  have er : idx_main_v13 (ridx_main_v14 (ix2 r s) k) = ix2 s k :=
    funext fun a => Fin.ext (by match a with | ⟨0, _⟩ => rfl | ⟨1, _⟩ => rfl)
  rw [el, val_main_v13_apply, er, scaled_x, scaled_y]

/-- The reference's last stage is the Gram matrix with the factor outside. -/
theorem ref_is_gramMax : val_main_v27 (F := Ideal) x0 x1 x2 = ArdSpec.gramMax x0 x1 x2 := by
  funext i
  obtain ⟨r, s, rfl⟩ : ∃ (r s : Fin 4096), i = ix2 r s := ⟨i 0, i 1, eq_ix2 i⟩
  have e15 : idx_main_v15 (idx_main_v17 (ix2 r s)) = ix1 r :=
    funext fun a => Fin.ext (by match a with | ⟨0, _⟩ => rfl)
  have e16 : idx_main_v16 (idx_main_v18 (ix2 r s)) = ix1 s :=
    funext fun a => Fin.ext (by match a with | ⟨0, _⟩ => rfl)
  rw [val_main_v27_apply, val_main_v26_apply, val_main_v25_apply, val_main_cst_4_apply, val_main_v24_apply,
    val_main_v23_apply, val_main_cst_3_apply, val_main_v22_apply, val_main_v21_apply, val_main_v20_apply,
    val_main_cst_2_apply, val_main_v19_apply, val_main_v17_apply, val_main_v15_apply, e15, sq_x,
    val_main_v18_apply, val_main_v16_apply, e16, sq_y, cross_xy]
  rfl

end Cert.RefValue

end
-- ==== Proof.FiniteInputs.lean ====
/-
  The precondition says every entry of the three argument arrays is a real number.

  The printed predicate compares the absolute value of every entry with the word of `+∞` (strictly below),
  takes the conjunction over each array, and then the conjunction of the three. It being all ones says that
  every comparison is one; on the extended reals `|x| < +∞` leaves out exactly `+∞` and `-∞`.
-/
import proofs.«154866_j82360292868538_2_alg».proof.Pre_finite_inputs
import Idealize.ShloMosaic.Lib.ReduceAll
import Idealize.ShloMosaic.Lib.Pipeline.Value
import Idealize.ShloMosaic.Lib.ValueIdx
import Idealize.ShloMosaic.PureOps.Ideal.Laws

noncomputable section

namespace Cert.FiniteInputs

open Idealize.ShloMosaic Idealize.ShloMosaic.ValueIdx Cert.Pre_finite_inputs

/-- The scalar shape has one index. -/
instance : Subsingleton S_.Idx := ⟨fun a b => funext fun d => d.elim0⟩

/-- The word `0x7F800000` is `+∞`. -/
theorem word_inf : Ideal.ofBits .f32 0x7F800000#32 = (⊤ : EReal) := by
  simp [Ideal.ofBits, Ideal.ieee]

/-- An extended real whose absolute value is strictly below `+∞` is a real number. -/
theorem real_of_abs_lt_inf (x b : EReal) (hb : b = Ideal.ofBits .f32 0x7F800000#32)
    (h : FloatOps.cmpf (F := Ideal) (φ := .f32) .olt (FloatOps.hostAbsf (F := Ideal) (φ := .f32) x) b = 1#1) :
    ∃ r : ℝ, x = (r : EReal) := by
  rw [hb, word_inf] at h
  change BitVec.ofBool (decide (max x (-x) < ⊤)) = 1#1 at h
  induction x using EReal.rec with
  | bot => simp at h
  | top => simp at h
  | coe r => exact ⟨r, rfl⟩

variable [Cert.Pre_finite_inputs.Facts]

open Cert.Pre_finite_inputs.Facts in
/-- The predicate all ones: every entry of `x`, of `y` and of `l` is a real number. -/
theorem real_of_pre (x y : FVec Ideal S4096x256 .f32) (l : FVec Ideal S256 .f32)
    (h : fn (F := Ideal) x y l = fun _ => 1#1) :
    (∀ i, ∃ r : ℝ, x i = (r : EReal)) ∧ (∀ i, ∃ r : ℝ, y i = (r : EReal)) ∧ (∀ i, ∃ r : ℝ, l i = (r : EReal)) := by
  have h0 := congrFun h ix0
  dsimp only [fn] at h0
  obtain ⟨hxy, hl⟩ := IntOp.andi_eq_one.1 h0
  obtain ⟨hx, hy⟩ := IntOp.andi_eq_one.1 hxy
  refine ⟨fun i => ?_, fun i => ?_, fun i => ?_⟩
  · exact real_of_abs_lt_inf (x i) _
      (broadcastInDim_apply _ bcast_S_S4096x256 (constant (F := Ideal) S_ .f32 0x7F800000#32) i ix0 (fun a => a.elim0))
      (Host.reduce_andi_all _ _ reducesTo_S4096x256_S_d0_1 h_S_ ix0 hx i)
  · exact real_of_abs_lt_inf (y i) _
      (broadcastInDim_apply _ bcast_S_S4096x256 (constant (F := Ideal) S_ .f32 0x7F800000#32) i ix0 (fun a => a.elim0))
      (Host.reduce_andi_all _ _ reducesTo_S4096x256_S_d0_1 h_S_ ix0 hy i)
  · exact real_of_abs_lt_inf (l i) _
      (broadcastInDim_apply _ bcast_S_S256 (constant (F := Ideal) S_ .f32 0x7F800000#32) i ix0 (fun a => a.elim0))
      (Host.reduce_andi_all _ _ reducesTo_S256_S_d0 h_S_ ix0 hl i)

end Cert.FiniteInputs

end
-- ==== Proof.lean ====
/-
  The ARD Gram matrix: `k (x_r, y_s) = exp (-(1/2) Σ_k (x_rk - y_sk)² / w_k)` with band widths `w_k = exp l_k`,
  computed through the expansion `|a|² + |b|² - 2 ⟨a, b⟩` of the squared distance of the rescaled rows
  `a = x_r · exp (-(1/2) l)`, `b = y_s · exp (-(1/2) l)`.

  The reference clamps the expanded squared distance at zero from below and multiplies by `-(1/2)` before the
  exponential. The kernel works block by block (1024 rows of `x` against 1024 rows of `y`), moves the factor
  `-(1/2)` inside — `exp (min (⟨a, b⟩ - (1/2) |a|² - (1/2) |b|²) 0)` — and takes the inner products on the matrix
  unit. Read over the extended reals, where a change of float format is the identity and every sum is exact:

  * the kernel's output array is `ArdSpec.gramMin` of the three arguments (Proof/KernelValue.lean for one block's
    stored value, Proof/KernelArray.lean for the sixteen blocks tiling the output);
  * the reference's result is `ArdSpec.gramMax` of them (Proof/RefValue.lean);
  * the two are one function on arrays of real numbers (Proof/ArdSpec.lean): `-(1/2) max d 0 = min (-(1/2) d) 0` and
    distributivity, which is where finiteness is used;
  * the precondition makes every entry a real number (Proof/FiniteInputs.lean).

  The three frames are the generated ones (the reference's is its generated run with the result dropped); the
  idealization rewrote no operation, so there is nothing to preserve.
-/
import proofs.«154866_j82360292868538_2_alg».proof.Defs
import proofs.«154866_j82360292868538_2_alg».proof.Proof.Gen.Kernel
import proofs.«154866_j82360292868538_2_alg».proof.Proof.Gen.Kernel.Frame
import proofs.«154866_j82360292868538_2_alg».proof.Proof.Gen.KernelIdeal
import proofs.«154866_j82360292868538_2_alg».proof.Proof.Gen.KernelIdeal.Frame
import proofs.«154866_j82360292868538_2_alg».proof.Proof.Gen.KernelIdeal.Value
import proofs.«154866_j82360292868538_2_alg».proof.Proof.Gen.ReferenceIdeal
import proofs.«154866_j82360292868538_2_alg».proof.Proof.Gen.ReferenceIdeal.Run
import proofs.«154866_j82360292868538_2_alg».proof.Proof.Gen.ReferenceIdeal.Read
import proofs.«154866_j82360292868538_2_alg».proof.Proof.Gen.Pre_finite_inputs
import proofs.«154866_j82360292868538_2_alg».proof.Proof.ArdSpec
import proofs.«154866_j82360292868538_2_alg».proof.Proof.KernelArray
import proofs.«154866_j82360292868538_2_alg».proof.Proof.RefValue
import proofs.«154866_j82360292868538_2_alg».proof.Proof.FiniteInputs

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments alone: its run, with the result dropped. -/
theorem frame_reference : Cert.frame_ReferenceIdeal := fun m ρ _ =>
  (θ_run Cert.ReferenceIdeal.defs _ _).mono (fun _ h c => (h c).2)
    (Cert.ReferenceIdeal.Value.run (F := Ideal) m ρ)

/-- From memories that agree on the arguments, all real by the precondition, the kernel ends at the Gram matrix with
    the factor inside and the reference at the one with the factor outside: one function on real arrays. -/
theorem algebraic : Cert.algebraic_KernelIdeal_ReferenceIdeal := by
  intro m ρ m' ρ' hpre hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.RefValue.ref_is_gramMax,
    (hagree c).1, (hagree c).2.1, (hagree c).2.2]
  obtain ⟨hx, hy, hl⟩ := Cert.FiniteInputs.real_of_pre _ _ _ (hpre c)
  exact (Cert.ArdSpec.gramMin_eq_gramMax _ _ _ hx hy hl).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
